-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16384x1024 : Shape := ⟨2, ![16384, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x1024 .f32) (main_arg1 : FVec F S16384x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S4096x1024 : Shape := ⟨2, ![4096, 1024]⟩
abbrev S16384x1024 : Shape := ⟨2, ![16384, 1024]⟩
abbrev S4096x16384 : Shape := ⟨2, ![4096, 16384]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [1] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x16384.size a
  hwx0_2 : ∀ i : grid0.Coords, EltTy.bits .f32 = 32 ∨ (Rect.block (s := S4096x16384) S512x1024.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16384x1024 : Shape := ⟨2, ![16384, 1024]⟩
abbrev S_ : Shape := ⟨0, ![]⟩
abbrev S4096 : Shape := ⟨1, ![4096]⟩
abbrev S16384 : Shape := ⟨1, ![16384]⟩
abbrev S4096x16384 : Shape := ⟨2, ![4096, 16384]⟩
abbrev S4096x1 : Shape := ⟨2, ![4096, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S4096x16384, .f32⟩
  | .hbm, ⟨9, _⟩ => ⟨S4096x1, .f32⟩
  | .hbm, ⟨10, _⟩ => ⟨S1x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  reducesTo_S16384x1024_S16384_d1 : S16384x1024.ReducesTo [1] S16384
  bcast_S4096_S4096x1_0 : S4096.BroadcastsInDim S4096x1 (![0] : Fin 1 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x1024_S16384x1024_S4096x16384_1_1_0_0_n_n_wf : DotDims.WF S4096x1024 S16384x1024 S4096x16384 [1] [1] [0] [0] [] []

variable [Facts₀]

def dot_S4096x1024_S16384x1024_S4096x16384_1_1_0_0_n_n : DotDims S4096x1024 S16384x1024 S4096x16384 where
  lhsContracting := [1]
  rhsContracting := [1]
  lhsNonContracting := [0]
  rhsNonContracting := [0]
  lhsBatch := []
  rhsBatch := []
  wf := dot_S4096x1024_S16384x1024_S4096x16384_1_1_0_0_n_n_wf

class Facts : Prop extends Facts₀ where

variable [Facts]
-- ==== Proof.LibRowsDot.lean ====
/-
  A matrix product that contracts the SECOND axis of both operands — rows against rows, no batch axis — read at an index.

  For dimension numbers `d` of that kind over shapes `[P, K]`, `[N, K]`, `[P, N]`, the exact contraction
  `∑ κ, l (d.lhsIdx j κ) * r (d.rhsIdx j κ)` over the one contracted axis is the sum
  `∑ k : Fin K, l (p, k) * r (n, k)` at the result index `j = (p, n)`: the left operand is read along its row `p`, the
  right operand along its row `n`, and the contracted axis of extent `K` is re-indexed by `Fin K`.  This is the product of
  the left operand with the TRANSPOSE of the right one.
-/
import Idealize.ShloMosaic.Lib.ValueIdx
import Idealize.ShloMosaic.PureOps.Ideal.Laws

noncomputable section

namespace RowsDot

open Idealize.ShloMosaic Idealize.ShloMosaic.ValueIdx

variable {P K N : Nat}

/-- The dimension numbers of a rows-against-rows product: both operands contract their second axis; the first axes are the
    result's, the left operand's first; no batch axis. -/
structure IsRows (d : DotDims ⟨2, ![P, K]⟩ ⟨2, ![N, K]⟩ ⟨2, ![P, N]⟩) : Prop where
  lc : d.lhsContracting = [(1 : Fin 2)]
  rc : d.rhsContracting = [(1 : Fin 2)]
  ln : d.lhsNonContracting = [(0 : Fin 2)]
  rn : d.rhsNonContracting = [(0 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![N, K]⟩ ⟨2, ![P, N]⟩}

/-- The left operand's row is the result's row. -/
theorem lhs_row (h : IsRows d) (j : (⟨2, ![P, N]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's row is the result's column. -/
theorem rhs_row (h : IsRows d) (j : (⟨2, ![P, N]⟩ : Shape).Idx) (κ : d.contr.Idx) :
    (d.rhsIdx j κ (0 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsRows d) : d.contr.rank = 1 := by rw [d.rank_contr, h.lc]; rfl

theorem contr_size (h : IsRows d) : d.contr.size ⟨0, by rw [contr_rank h]; exact Nat.one_pos⟩ = K := by
  have e := d.size_contr 0 (by rw [h.lc]; exact Nat.one_pos)
  rw [e]
  simp [h.lc]

/-- THE PRODUCT AT `(p, n)`: the sum over `k : Fin K` of the left operand at `(p, k)` times the right at `(n, k)`. -/
theorem sum_eq (h : IsRows d) (l : (⟨2, ![P, K]⟩ : Shape).Idx → EReal) (r : (⟨2, ![N, K]⟩ : Shape).Idx → EReal)
    (p : Fin P) (n : Fin N) :
    ∑ κ : d.contr.Idx, l (d.lhsIdx (ix2 p n) κ) * r (d.rhsIdx (ix2 p n) κ) = ∑ k : Fin K, l (ix2 p k) * r (ix2 n k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p n) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p n) ((contrEquiv1 d K (contr_rank h) (contr_size h)).symm k) = ix2 n k :=
    funext fun a => Fin.ext (by
      match a with
      | ⟨0, _⟩ => exact rhs_row h _ _
      | ⟨1, _⟩ => exact (d.rhsIdx_val_of_single h.rc _ _).trans hk)
  rw [el, er]

/-- A `tpu.matmul` into the zero accumulator, at the ideal instance, read at `(p, n)`. -/
theorem matmul_zero_apply (h : IsRows d) {φ₁ φ₂ : FTy} (l : FVec Ideal ⟨2, ![P, K]⟩ φ₁) (r : FVec Ideal ⟨2, ![N, K]⟩ φ₂)
    (p : Fin P) (n : Fin N) :
    FloatOps.matmul d none l r (constant ⟨2, ![P, N]⟩ .f32 0x00000000#32) (ix2 p n) = ∑ k : Fin K, l (ix2 p k) * r (ix2 n k) := by
  rw [Ideal.matmul_constant_zero_apply]
  exact sum_eq h l r p n

end RowsDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibRowBroadcast.lean ====
/-
  Reading a row vector that is laid along the lanes at an index.

  A vector `[b]` cast to a one-row array `[1, b]` holds, at `(0, k)`, the vector's entry `k`; such a row broadcast over `a` rows,
  `[1, b] → [a, b]`, holds at `(r, k)` the row's entry `k`, whatever the row number `r`.  Each lemma reads one of these at an index
  written with literal coordinates.
-/
import Idealize.ShloMosaic.Lib.ValueIdx
import Idealize.ShloMosaic.Lib.ValueLayout
import Idealize.ShloMosaic.Lib.Pipeline.Value

noncomputable section

namespace RowBroadcast

open Idealize.ShloMosaic Idealize.ShloMosaic.ValueIdx

variable {α : Type} {a b : ℕ}

/-- A vector `[b]` cast to a row `[1, b]` reads, at `(u, k)`, the vector at `k`. -/
theorem shapeCast_b_1b_apply (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A row `[1, b]` broadcast over `a` rows reads, at `(r, k)`, the row at `k`. -/
theorem broadcastTo_1b_ab_apply (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.LibSqDist.lean ====
/-
  The expanded squared distance between the rows of two matrices, at the ideal instance.

  For `x : [P, K]` and `y : [N, K]` the entry `(p, n)` of `expanded x y` is
  `(∑ k, x(p,k)·x(p,k) + ∑ k, y(n,k)·y(n,k)) − 2 · ∑ k, x(p,k)·y(n,k)`: the squared norm of row `p` of `x` plus the squared norm
  of row `n` of `y` minus twice their inner product, on the extended reals, with the sums and the grouping exactly these.
  `kernel_eq` says that a block kernel's spelling of it — lane sums kept as a column `[P, 1]` and as a row `[1, N]`, both
  broadcast to `[P, N]`, and a rows-against-rows matrix product of the operands narrowed to a shorter float format (the identity
  on extended reals) into a zero accumulator — is this function.  `pairAt_congr` says the entry depends only on the two rows.
-/
import Idealize.ShloMosaic.Lib.ValueIdx
import Idealize.ShloMosaic.PureOps.Ideal.Laws
import proofs.«160186_j58119497449848_1_alg».proof.Proof.LibRowsDot
import proofs.«160186_j58119497449848_1_alg».proof.Proof.LibKeepDims
import proofs.«160186_j58119497449848_1_alg».proof.Proof.LibRowBroadcast

noncomputable section

namespace SqDist

open Idealize.ShloMosaic Idealize.ShloMosaic.ValueIdx

variable {P N K : Nat}

/-- Squared norm of row `p` of `x`, plus squared norm of row `n` of `y`, minus twice the inner product of the two rows. -/
def pairAt (x : (⟨2, ![P, K]⟩ : Shape).Idx → EReal) (y : (⟨2, ![N, K]⟩ : Shape).Idx → EReal) (p : Fin P) (n : Fin N) : EReal :=
  (∑ k : Fin K, x (ix2 p k) * x (ix2 p k) + ∑ k : Fin K, y (ix2 n k) * y (ix2 n k))
    - Ideal.ofBits .f32 0x40000000#32 * ∑ k : Fin K, x (ix2 p k) * y (ix2 n k)

/-- The whole array of expanded squared distances. -/
def expanded (x : (⟨2, ![P, K]⟩ : Shape).Idx → EReal) (y : (⟨2, ![N, K]⟩ : Shape).Idx → EReal) :
    (⟨2, ![P, N]⟩ : Shape).Idx → EReal :=
  fun i => pairAt x y (i 0) (i 1)

theorem expanded_apply (x : (⟨2, ![P, K]⟩ : Shape).Idx → EReal) (y : (⟨2, ![N, K]⟩ : Shape).Idx → EReal) (p : Fin P) (n : Fin N) :
    expanded x y (ix2 p n) = pairAt x y p n := rfl

/-- The entry `(p, n)` reads only row `p` of `x` and row `n` of `y`: two pairs of matrices that agree on those rows, under any
    renumbering of the rows, give the same entry. -/
theorem pairAt_congr {P' N' : Nat} (x : (⟨2, ![P, K]⟩ : Shape).Idx → EReal) (y : (⟨2, ![N, K]⟩ : Shape).Idx → EReal)
    (x' : (⟨2, ![P', K]⟩ : Shape).Idx → EReal) (y' : (⟨2, ![N', K]⟩ : Shape).Idx → EReal) (p : Fin P) (n : Fin N) (p' : Fin P') (n' : Fin N')
    (hx : ∀ k : Fin K, x' (ix2 p' k) = x (ix2 p k)) (hy : ∀ k : Fin K, y' (ix2 n' k) = y (ix2 n k)) :
    pairAt x' y' p' n' = pairAt x y p n := by
  unfold pairAt
  simp only [hx, hy]

/-- The block kernel's spelling is the expanded squared distance. -/
theorem kernel_eq {ψ : FTy} (x0 : FVec Ideal ⟨2, ![P, K]⟩ .f32) (x1 : FVec Ideal ⟨2, ![N, K]⟩ .f32)
    (hr0 : (⟨2, ![P, K]⟩ : Shape).Reduces [1] ⟨1, ![P]⟩) (hc0 : (⟨1, ![P]⟩ : Shape).ShapeCasts ⟨2, ![P, 1]⟩)
    (hr1 : (⟨2, ![N, K]⟩ : Shape).Reduces [1] ⟨1, ![N]⟩) (hc1 : (⟨1, ![N]⟩ : Shape).ShapeCasts ⟨2, ![1, N]⟩)
    (hφ : FKind.Formats .f32) (hacc : (0x00000000#32 : BitVec 32) = 0x00000000#32)
    (hlt : FTy.bits ψ < FTy.bits .f32)
    (hb0 : (⟨2, ![P, 1]⟩ : Shape).Broadcasts ⟨2, ![P, N]⟩) (hb1 : (⟨2, ![1, N]⟩ : Shape).Broadcasts ⟨2, ![P, N]⟩)
    (d : DotDims ⟨2, ![P, K]⟩ ⟨2, ![N, K]⟩ ⟨2, ![P, N]⟩) (hd : RowsDot.IsRows d) :
    subf (addf (broadcastTo ⟨2, ![P, N]⟩ (shapeCast ⟨2, ![P, 1]⟩ (multiReduction .add [1] ⟨1, ![P]⟩ (mulf x0 x0) 0x00000000#32 hr0 hφ hacc) hc0) hb0)
               (broadcastTo ⟨2, ![P, N]⟩ (shapeCast ⟨2, ![1, N]⟩ (multiReduction .add [1] ⟨1, ![N]⟩ (mulf x1 x1) 0x00000000#32 hr1 hφ hacc) hc1) hb1))
         (mulf (broadcast ⟨2, ![P, N]⟩ (Scalar.ofBits .f32 0x40000000#32))
               (matmul d none (truncf ψ x0 hlt) (truncf ψ x1 hlt) (constant ⟨2, ![P, N]⟩ .f32 0x00000000#32)))
      = expanded x0 x1 := by
  funext j
  obtain ⟨p, n, rfl⟩ : ∃ (p : Fin P) (n : Fin N), j = ix2 p n := ⟨j 0, j 1, eq_ix2 j⟩
  rw [expanded_apply, subf_apply, addf_apply, mulf_apply, broadcast_apply,
    KeepDims.broadcastTo_a1_ab_apply, KeepDims.shapeCast_a_a1_apply, KeepDims.laneSum_apply,
    RowBroadcast.broadcastTo_1b_ab_apply, RowBroadcast.shapeCast_b_1b_apply, KeepDims.laneSum_apply]
  have hm : matmul d none (truncf ψ x0 hlt) (truncf ψ x1 hlt) (constant ⟨2, ![P, N]⟩ .f32 0x00000000#32) (ix2 p n)
      = ∑ k : Fin K, x0 (ix2 p k) * x1 (ix2 n k) :=
    RowsDot.matmul_zero_apply hd (truncf ψ x0 hlt) (truncf ψ x1 hlt) p n
  rw [hm]
  rfl

end SqDist

end
-- ==== Proof.KernelSqDist.lean ====
/-
  The kernel's result array is the expanded squared distance of its two arguments.

  The grid has 8 × 16 points.  Point `(i, j)` stages rows `512·i … 512·i + 511` of `x` (all 1024 columns) and rows
  `1024·j … 1024·j + 1023` of `y`, and writes back the `512 × 1024` block `(i, j)` of the result.  The body computes, from the two
  staged blocks alone, the expanded squared distance of every row of the first to every row of the second (`body_eq`).  Since an
  entry of the expanded squared distance reads only one row of each operand, the block written at `(i, j)` is block `(i, j)` of
  the expanded squared distance of the WHOLE arrays (`flushed_eq`); the 128 blocks tile the `4096 × 16384` result (`cover`), so
  the result array ends holding that function (`final`, `run`).
-/
import proofs.«160186_j58119497449848_1_alg».proof.Proof.Gen.KernelIdeal.Value
import proofs.«160186_j58119497449848_1_alg».proof.Proof.LibSqDist
import Idealize.ShloMosaic.Lib.Pipeline.Value

noncomputable section

namespace Cert.KernelIdeal.SqDistValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- What the body stores, as a function of the two blocks it loads: their expanded squared distance. -/
theorem body_eq (x0 : Vec Ideal S512x1024 .f32) (x1 : Vec Ideal S1024x1024 .f32) :
    k0_pay1 x0 x1 = SqDist.expanded x0 x1 := by
  unfold k0_pay1
  exact SqDist.kernel_eq x0 x1 reduces_S512x1024_S512 shapeCasts_S512_S512x1 reduces_S1024x1024_S1024 shapeCasts_S1024_S1x1024
    (.inl rfl) rfl bitsLt_bf16_f32 broadcasts_S512x1_S512x1024 broadcasts_S1x1024_S512x1024
    dot_S512x1024_S1024x1024_S512x1024_1_1_0_0_n_n ⟨rfl, rfl, rfl, rfl, rfl, rfl⟩

/-- The index maps over the grid: the block of `x` has the output block's row number and column block 0; the block of `y` has the
    output block's column number as its row number, and column block 0. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the 8 × 16 tiling of the result is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- An entry of the expanded squared distance of two blocks is the entry of the expanded squared distance of the whole arrays at
    any index whose row of `x` and row of `y` are the blocks' rows. -/
theorem block_entry (X : S4096x1024.Idx → EReal) (Y : S16384x1024.Idx → EReal) (x0 : Vec Ideal S512x1024 .f32)
    (x1 : Vec Ideal S1024x1024 .f32) (i : S4096x16384.Idx) (p : Fin 512) (n : Fin 1024)
    (h0 : ∀ k : Fin 1024, x0 (ix2 p k) = X (ix2 (i 0) k)) (h1 : ∀ k : Fin 1024, x1 (ix2 n k) = Y (ix2 (i 1) k)) :
    SqDist.expanded x0 x1 (ix2 p n) = SqDist.expanded X Y i :=
  SqDist.pairAt_congr X Y x0 x1 (i 0) (i 1) p n h0 h1

/-- WHAT POINT `t` WRITES BACK is block `t` of the expanded squared distance of the argument arrays. -/
theorem flushed_eq (c : Dev nD) (t : Fin cfg0.N) :
    (dats m 0 c).flushed 2 t
      = ((cfg0.win 2).blk t).view.read (Elt Ideal) (SqDist.expanded (V m c main_arg0) (V m c main_arg1)) := by
  rw [flushed2]
  unfold out0_2
  rw [View.canon_unit_zero origin]
  simp only [View.ld_unit_zero (S := S512x1024) origin, View.ld_unit_zero (S := S1024x1024) origin]
  rw [body_eq]
  obtain ⟨e0, e1, e2, e3⟩ := idx_facts t
  funext j
  obtain ⟨p, n, rfl⟩ : ∃ (p : Fin 512) (n : Fin 1024), j = ix2 p n := ⟨j 0, j 1, eq_ix2 j⟩
  show SqDist.expanded (iblk m c 0 t) (iblk m c 1 t) (ix2 p n)
    = SqDist.expanded (V m c main_arg0) (V m c main_arg1) (((cfg0.win 2).blk t).view.emb (ix2 p n))
  refine block_entry (V m c main_arg0) (V m c main_arg1) (iblk m c 0 t) (iblk m c 1 t) (((cfg0.win 2).blk t).view.emb (ix2 p n)) p n
    (fun k => ?_) (fun k => ?_)
  · show V m c main_arg0 (((cfg0.win 0).blk t).view.emb (ix2 p k)) = V m c main_arg0 (ix2 ((((cfg0.win 2).blk t).view.emb (ix2 p n)) 0) k)
    refine congrArg (V m c main_arg0) (funext fun a => Fin.ext ?_)
    match a with
    | ⟨0, _⟩ => show win0_0.index t (0 : Fin 2) * 512 + 1 * p.val = win0_2.index t (0 : Fin 2) * 512 + 1 * p.val; rw [e0]
    | ⟨1, _⟩ => show win0_0.index t (1 : Fin 2) * 1024 + 1 * k.val = k.val; rw [e1]; omega
  · show V m c main_arg1 (((cfg0.win 1).blk t).view.emb (ix2 n k)) = V m c main_arg1 (ix2 ((((cfg0.win 2).blk t).view.emb (ix2 p n)) 1) k)
    refine congrArg (V m c main_arg1) (funext fun a => Fin.ext ?_)
    match a with
    | ⟨0, _⟩ => show win0_1.index t (0 : Fin 2) * 1024 + 1 * n.val = win0_2.index t (1 : Fin 2) * 1024 + 1 * n.val; rw [e2]
    | ⟨1, _⟩ => show win0_1.index t (1 : Fin 2) * 1024 + 1 * k.val = k.val; rw [e3]; omega

/-- An index of the result is in point `t`'s block iff each coordinate is in the block's range on its axis. -/
theorem mem_blk (t : Fin cfg0.N) (i : S4096x16384.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- The blocks tile the result: the entry `(r, s)` is in the block of the point with block numbers `(r / 512, s / 1024)`. -/
theorem cover (i : S4096x16384.Idx) :
    ∃ t : Fin cfg0.N, (cfg0.win 2).flush t = true ∧ i ∈ ((cfg0.win 2).blk t).view.set := by
  have hi0 : (i 0).val < 4096 := (i 0).isLt
  have hi1 : (i 1).val < 16384 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE RESULT ARRAY after the run: the expanded squared distance of the argument arrays. -/
theorem final (c : Dev nD) : (dats m 0 c).arrAt 2 cfg0.N
    = SqDist.expanded (m ((c : Thread nD τ).loc main_arg0)) (m ((c : Thread nD τ).loc main_arg1)) :=
  (dats m 0 c).arrAt_eq_of_cover 2 (SqDist.expanded (V m c main_arg0) (V m c main_arg1)) (fun t _ => flushed_eq m c t) cover

/-- The run, read: the result array at the expanded squared distance of the arguments, the arguments unchanged. -/
theorem run : θ_run defs (onTc (τ := τ) (main (F := Ideal))) ⟨m, fun _ => 0, ρ⟩ fun r => ∀ c : Dev nD,
      r.2.mem ((c : Thread nD τ).loc main_v0)
        = SqDist.expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.SqDistValue

end
-- ==== Proof.RefSqDist.lean ====
/-
  The reference computes the expanded squared distance.

  Its program sums the squares along each row of `x` and of `y` (each sum started from the zero word), lays the first as a column
  and the second as a row over the `[4096, 16384]` result, adds them, and subtracts twice the rows-against-rows product of `x` and `y`.
  Read at `(p, n)` this is `(0 + ∑ k, x(p,k)² ) + (0 + ∑ k, y(n,k)²) − 2 · ∑ k, x(p,k)·y(n,k)`; the zero word denotes `0`, and the rest is
  `SqDist.expanded x y` at `(p, n)` term for term.
-/
import proofs.«160186_j58119497449848_1_alg».proof.Proof.Gen.ReferenceIdeal.Read
import proofs.«160186_j58119497449848_1_alg».proof.Proof.LibSqDist

noncomputable section

namespace Cert.ReferenceIdeal.RefValue

open Cert.ReferenceIdeal Cert.ReferenceIdeal.Gen Cert.ReferenceIdeal.Read
open Idealize.ShloMosaic Idealize.ShloMosaic.ValueIdx

/-- The row of `x` that the first norm reads for the result entry `(p, n)`. -/
theorem row_x (p : Fin 4096) (n : Fin 16384) (k : Fin 1024) :
    idx_main_v1 (idx_main_v5 (idx_main_v7 (ix2 p n))) k = ix2 p k :=
  funext fun a => Fin.ext (by match a with | ⟨0, _⟩ => rfl | ⟨1, _⟩ => rfl)

/-- The row of `y` that the second norm reads for the result entry `(p, n)`. -/
theorem row_y (p : Fin 4096) (n : Fin 16384) (k : Fin 1024) :
    idx_main_v3 (idx_main_v6 (idx_main_v8 (ix2 p n))) k = ix2 n k :=
  funext fun a => Fin.ext (by match a with | ⟨0, _⟩ => rfl | ⟨1, _⟩ => rfl)

/-- The product's left operand is read along row `p`. -/
theorem dot_x (p : Fin 4096) (n : Fin 16384) (k : Fin 1024) : lidx_main_v4 (ix2 p n) k = ix2 p k :=
  funext fun a => Fin.ext (by match a with | ⟨0, _⟩ => rfl | ⟨1, _⟩ => rfl)

/-- The product's right operand is read along row `n`. -/
theorem dot_y (p : Fin 4096) (n : Fin 16384) (k : Fin 1024) : ridx_main_v4 (ix2 p n) k = ix2 n k :=
  funext fun a => Fin.ext (by match a with | ⟨0, _⟩ => rfl | ⟨1, _⟩ => rfl)

/-- The reference's result, as a function of its two arguments, is the expanded squared distance. -/
theorem ref_eq (x : S4096x1024.Idx → EReal) (y : S16384x1024.Idx → EReal) :
    val_main_v12 (F := Ideal) x y = SqDist.expanded x y := by
  funext i
  obtain ⟨p, n, rfl⟩ : ∃ (p : Fin 4096) (n : Fin 16384), i = ix2 p n := ⟨i 0, i 1, eq_ix2 i⟩
  rw [SqDist.expanded_apply, val_main_v12_apply, val_main_v9_apply, val_main_v11_apply, val_main_v7_apply, val_main_v5_apply,
    val_main_v1_apply, val_main_v8_apply, val_main_v6_apply, val_main_v3_apply, val_main_v10_apply, val_main_cst_1_apply,
    val_main_v4_apply, val_main_cst_apply, val_main_cst_0_apply]
  simp only [val_main_v0_apply, val_main_v2_apply, row_x, row_y, dot_x, dot_y, Ideal.subf_def, Ideal.addf_def, Ideal.mulf_def,
    Ideal.ofBits_def, Ideal.ofBits_zero_f32, zero_add]
  rfl

end Cert.ReferenceIdeal.RefValue

end
-- ==== Proof.lean ====
/-
  The pairwise squared distance `d2[b, n] = ‖x_b‖² + ‖y_n‖² − 2 · x_b · y_n` of the rows of `x : [4096, 1024]` and `y : [16384, 1024]`:
  a block kernel over an 8 × 16 grid against the host reference.

  At the ideal instance both programs compute, at every `(b, n)`, the same expression on the extended reals,
  `(∑ k, x(b,k)·x(b,k) + ∑ k, y(n,k)·y(n,k)) − 2 · ∑ k, x(b,k)·y(n,k)` (`SqDist.expanded`): the kernel block by block, narrowing the
  operands of its matrix product to a shorter float format (the identity on extended reals) and accumulating into zero; the reference
  with each row sum started from the zero word (which denotes 0) and a `dot_general` contracting the second axis of both operands.
  The sums, their grouping and the literal 2 are the same on both sides, so no law of arithmetic beyond `0 + a = a` is used and the
  finiteness of the inputs is never needed.

  The frames of the two kernel programs are the generated class-A frames; the reference's frame is its generated run with the
  result dropped; the kernel's idealization rewrote no operation, so it has nothing to preserve.
-/
import proofs.«160186_j58119497449848_1_alg».proof.Defs
import proofs.«160186_j58119497449848_1_alg».proof.Proof.Gen.Kernel
import proofs.«160186_j58119497449848_1_alg».proof.Proof.Gen.Kernel.Frame
import proofs.«160186_j58119497449848_1_alg».proof.Proof.Gen.KernelIdeal
import proofs.«160186_j58119497449848_1_alg».proof.Proof.Gen.KernelIdeal.Frame
import proofs.«160186_j58119497449848_1_alg».proof.Proof.Gen.KernelIdeal.Value
import proofs.«160186_j58119497449848_1_alg».proof.Proof.Gen.ReferenceIdeal
import proofs.«160186_j58119497449848_1_alg».proof.Proof.Gen.ReferenceIdeal.Run
import proofs.«160186_j58119497449848_1_alg».proof.Proof.Gen.ReferenceIdeal.Read
import proofs.«160186_j58119497449848_1_alg».proof.Proof.Gen.Pre_finite_inputs
import proofs.«160186_j58119497449848_1_alg».proof.Proof.KernelSqDist
import proofs.«160186_j58119497449848_1_alg».proof.Proof.RefSqDist

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the expanded squared distance of the (agreeing) argument arrays. -/
theorem algebraic : Cert.algebraic_KernelIdeal_ReferenceIdeal := by
  intro m ρ m' ρ' _ hagree
  refine ⟨_, Cert.KernelIdeal.SqDistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
